-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S10000x128 : Shape := ⟨2, ![10000, 128]⟩
abbrev S1600000x128 : Shape := ⟨2, ![1600000, 128]⟩
abbrev S1x128 : Shape := ⟨2, ![1, 128]⟩
abbrev S100000x64 : Shape := ⟨2, ![100000, 64]⟩
abbrev S10000x64 : Shape := ⟨2, ![10000, 64]⟩
abbrev S1600000x64 : Shape := ⟨2, ![1600000, 64]⟩
abbrev S1x64 : Shape := ⟨2, ![1, 64]⟩

abbrev nBuf : Space → Nat
  | .hbm => 105
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S1600000, .f32⟩
  | .hbm, ⟨48, _⟩ => ⟨S100000x128, .f32⟩
  | .hbm, ⟨49, _⟩ => ⟨S1600000x1, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S1600000x1, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .f32⟩
  | .hbm, ⟨78, _⟩ => ⟨S1600000x128, .f32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x64, .f32⟩
  | .hbm, ⟨87, _⟩ => ⟨S1600000x1, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x64, .f32⟩
  | .hbm, ⟨97, _⟩ => ⟨S1600000x64, .f32⟩
  | .hbm, ⟨98, _⟩ => ⟨S1600000x64, .f32⟩
  | .hbm, ⟨99, _⟩ => ⟨S_, .f32⟩
  | .hbm, ⟨100, _⟩ => ⟨S100000x64, .f32⟩
  | .hbm, ⟨101, _⟩ => ⟨S1600000x1, .i32⟩
  | .hbm, ⟨102, _⟩ => ⟨S100000x64, .f32⟩
  | .hbm, ⟨103, _⟩ => ⟨S1x64, .f32⟩
  | .hbm, ⟨104, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 119
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S100000x128, .f32⟩
  | .hbm, ⟨48, _⟩ => ⟨S1600000, .f32⟩
  | .hbm, ⟨49, _⟩ => ⟨S1600000x1, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1600000, .f32⟩
  | .hbm, ⟨73, _⟩ => ⟨S1600000x1, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S1600000x128, .f32⟩
  | .hbm, ⟨84, _⟩ => ⟨S1600000x128, .f32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S100000x64, .f32⟩
  | .hbm, ⟨96, _⟩ => ⟨S1600000, .f32⟩
  | .hbm, ⟨97, _⟩ => ⟨S1600000x1, .f32⟩
  | .hbm, ⟨98, _⟩ => ⟨S_, .i32⟩
  | .hbm, ⟨99, _⟩ => ⟨S1600000, .i32⟩
  | .hbm, ⟨100, _⟩ => ⟨S1600000, .i1⟩
  | .hbm, ⟨101, _⟩ => ⟨S_, .i32⟩
  | .hbm, ⟨102, _⟩ => ⟨S1600000, .i32⟩
  | .hbm, ⟨103, _⟩ => ⟨S1600000, .i32⟩
  | .hbm, ⟨104, _⟩ => ⟨S1600000, .i32⟩
  | .hbm, ⟨105, _⟩ => ⟨S1600000x1, .i32⟩
  | .hbm, ⟨106, _⟩ => ⟨S1600000x64, .f32⟩
  | .hbm, ⟨107, _⟩ => ⟨S1600000x64, .f32⟩
  | .hbm, ⟨108, _⟩ => ⟨S1600000x64, .f32⟩
  | .hbm, ⟨109, _⟩ => ⟨S_, .f32⟩
  | .hbm, ⟨110, _⟩ => ⟨S100000x64, .f32⟩
  | .hbm, ⟨111, _⟩ => ⟨S1600000x1, .i32⟩
  | .hbm, ⟨112, _⟩ => ⟨S100000x64, .f32⟩
  | .hbm, ⟨113, _⟩ => ⟨S1x64, .f32⟩
  | .hbm, ⟨114, _⟩ => ⟨S100000x64, .f32⟩
  | .hbm, ⟨115, _⟩ => ⟨S100000x64, .f32⟩
  | .hbm, ⟨116, _⟩ => ⟨S_, .f32⟩
  | .hbm, ⟨117, _⟩ => ⟨S100000x64, .f32⟩
  | .hbm, ⟨118, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call1_cst : Ref sig .tc := ⟨.hbm, 68, rfl⟩
abbrev main_call1_v0 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_call3_cst : Ref sig .tc := ⟨.hbm, 116, rfl⟩
abbrev main_call3_v0 : Ref sig .tc := ⟨.hbm, 117, rfl⟩
abbrev main_v84 : Ref sig .tc := ⟨.hbm, 118, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The kernel program's run with its RESULT named. The program is six device regions among stretches of host
  operations; its frame certificate folds the buffer contents through the twelve segments, from the launch memory
  `W0` to the contents `W12` after the last region, and reads every unscoped buffer of the final state at `W12`.
  Here the same run is read once more at the result buffer: every weakly fair execution terminates with the result
  array at `W12`'s value for it, the arguments unchanged. What `W12` holds there is computed in KernelValue.lean.
-/
import proofs.«108545_j75273596830237_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result array at the last
    boundary's contents and the argument arrays as launched. -/
theorem run : θ_run defs (onTc (τ := τ) (main (F := F))) ⟨m, fun _ => 0, ρ⟩ (fun r => ∀ c : Dev nD,
      r.2.mem ((c.tc : Thread nD τ).loc main_v76) = W12 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v76 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.RunValue

end
-- ==== Proof.Spec.lean ====
/-
  A three-layer graph convolution over a fixed edge list, as ONE function of the eight argument arrays.

  The edge array e : [2, E] holds a source row and a target row of node numbers (E = 1 600 000 edges, N = 100 000
  nodes). The in-degree of a node is the number of edges that target it; its weight is deg^(-1/2) where the degree is
  positive and 0 elsewhere; an edge's coefficient is the product of the weights of its two ends. One layer takes node
  features x : [N, d_in], multiplies them by a weight matrix W : [d_in, d_out], and sends along every edge the source
  node's row of x W scaled by the edge's coefficient; a node's new row is the sum of what arrives, plus a bias row,
  cut below at 0. The network is three such layers, 128 -> 128 -> 128 -> 64.

  Every piece is written with the host operations of the printed reference program (slices, gathers with the
  usual wrap of negative node numbers, scatter-adds, the host matrix product), so the reference's run is this function
  by unfolding; the kernel's six device regions are proved, array by array, to compute the matrix products
  (`lin128`, `lin64`) and the bias-and-cut steps (`rowBias128`, `rowBias64`) of it.
-/
import proofs.«108545_j75273596830237_1_alg».proof.ReferenceIdeal

noncomputable section

namespace Cert.Gcn

open Idealize.ShloMosaic Cert.ReferenceIdeal Cert.ReferenceIdeal.Facts₀ Cert.ReferenceIdeal.Facts

variable {F : FTy → Type} [FloatOps F] [Cert.ReferenceIdeal.Facts]

/-- The source node of every edge: row 0 of the edge array. -/
def src (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The target node of every edge: row 1 of the edge array. -/
def dst (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- A node number read as an array position: a negative number counts from the end (N is added to it). -/
def wrap (r : (⟨S1600000, .i32⟩ : BufTy).Contents (Elt F)) : (⟨S1600000, .i32⟩ : BufTy).Contents (Elt F) :=
  select (cmpi .slt r (broadcastInDim S1600000 ![] bcast_S_S1600000 (constantI S_ 32 0#32)))
    (addi r (broadcastInDim S1600000 ![] bcast_S_S1600000 (constantI S_ 32 100000#32))) r

/-- The in-degree of every node: a one added at the target of every edge. -/
def deg (d : (⟨S1600000, .i32⟩ : BufTy).Contents (Elt F)) : (⟨S100000, .f32⟩ : BufTy).Contents (Elt F) :=
  Host.scatterAdd scatter_S100000_S1600000x1_S1600000_n_0_0_1 (broadcastInDim S100000 ![] bcast_S_S100000 (constant S_ .f32 0x00000000#32))
    (broadcastInDim S1600000x1 ![0] bcast_S1600000_S1600000x1_0 d) (broadcastInDim S1600000 ![] bcast_S_S1600000 (constant S_ .f32 0x3F800000#32))

/-- A node's weight: deg^(-1/2) where the degree is positive (the root taken of max(deg, 1)), 0 elsewhere. -/
def dinv (d : (⟨S1600000, .i32⟩ : BufTy).Contents (Elt F)) : (⟨S100000, .f32⟩ : BufTy).Contents (Elt F) :=
  select (cmpf .ogt (deg d) (broadcastInDim S100000 ![] bcast_S_S100000 (constant S_ .f32 0x00000000#32)))
    (Host.rsqrt (maximumf (deg d) (broadcastInDim S100000 ![] bcast_S_S100000 (constant S_ .f32 0x3F800000#32))))
    (broadcastInDim S100000 ![] bcast_S_S100000 (id (constant S_ .f32 0x00000000#32)))

/-- An edge's coefficient: the weight of its source times the weight of its target. -/
def coef (s d : (⟨S1600000, .i32⟩ : BufTy).Contents (Elt F)) : (⟨S1600000, .f32⟩ : BufTy).Contents (Elt F) :=
  mulf (Host.gather gather_S100000_S1600000x1_S1600000_n_0_n_n_0_1_1 (dinv d) (broadcastInDim S1600000x1 ![0] bcast_S1600000_S1600000x1_0 (wrap s)))
    (Host.gather gather_S100000_S1600000x1_S1600000_n_0_n_n_0_1_1 (dinv d) (broadcastInDim S1600000x1 ![0] bcast_S1600000_S1600000x1_0 (wrap d)))

/-- Aggregation over the edges, 128 columns: node n receives the sum over the edges that target n of the edge's
    coefficient times the source node's row of `xw`. -/
def agg128 (nrm : (⟨S1600000, .f32⟩ : BufTy).Contents (Elt F)) (s d : (⟨S1600000, .i32⟩ : BufTy).Contents (Elt F))
    (xw : (⟨S100000x128, .f32⟩ : BufTy).Contents (Elt F)) : (⟨S100000x128, .f32⟩ : BufTy).Contents (Elt F) :=
  Host.scatterAdd scatter_S100000x128_S1600000x1_S1600000x128_1_0_0_1 (broadcastInDim S100000x128 ![] bcast_S_S100000x128 (constant S_ .f32 0x00000000#32))
    (broadcastInDim S1600000x1 ![0] bcast_S1600000_S1600000x1_0 d)
    (mulf (broadcastInDim S1600000x128 ![0, 1] bcast_S1600000x1_S1600000x128_0_1 (broadcastInDim S1600000x1 ![0] bcast_S1600000_S1600000x1_0 nrm))
      (Host.gather gather_S100000x128_S1600000x1_S1600000x128_1_0_n_n_0_1_1128 xw (broadcastInDim S1600000x1 ![0] bcast_S1600000_S1600000x1_0 (wrap s))))

/-- The same aggregation, 64 columns. -/
def agg64 (nrm : (⟨S1600000, .f32⟩ : BufTy).Contents (Elt F)) (s d : (⟨S1600000, .i32⟩ : BufTy).Contents (Elt F))
    (xw : (⟨S100000x64, .f32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant S_ .f32 0x00000000#32))
    (broadcastInDim S1600000x1 ![0] bcast_S1600000_S1600000x1_0 d)
    (mulf (broadcastInDim S1600000x64 ![0, 1] bcast_S1600000x1_S1600000x64_0_1 (broadcastInDim S1600000x1 ![0] bcast_S1600000_S1600000x1_0 nrm))
      (Host.gather gather_S100000x64_S1600000x1_S1600000x64_1_0_n_n_0_1_164 xw (broadcastInDim S1600000x1 ![0] bcast_S1600000_S1600000x1_0 (wrap s))))

/-- The matrix product  [N, 128] x [128, 128]. -/
def lin128 (x : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none x w

/-- The matrix product  [N, 128] x [128, 64]. -/
def lin64 (x : (⟨S100000x128, .f32⟩ : BufTy).Contents (Elt F)) (w : (⟨S128x64, .f32⟩ : BufTy).Contents (Elt F)) :
    (⟨S100000x64, .f32⟩ : BufTy).Contents (Elt F) :=
  Host.dotGeneral dot_S100000x128_S128x64_S100000x64_1_0_0_1_n_n none x w

/-- A one-row matrix added to every row, the sum cut below at 0; 128 columns. -/
def rowBias128 (a : (⟨S100000x128, .f32⟩ : BufTy).Contents (Elt F)) (r : (⟨S1x128, .f32⟩ : BufTy).Contents (Elt F)) :
    (⟨S100000x128, .f32⟩ : BufTy).Contents (Elt F) :=
  maximumf (addf a (broadcastInDim S100000x128 ![0, 1] bcast_S1x128_S100000x128_0_1 r))
    (broadcastInDim S100000x128 ![] bcast_S_S100000x128 (constant S_ .f32 0x00000000#32))

/-- A one-row matrix added to every row, the sum cut below at 0; 64 columns. -/
def rowBias64 (a : (⟨S100000x64, .f32⟩ : BufTy).Contents (Elt F)) (r : (⟨S1x64, .f32⟩ : BufTy).Contents (Elt F)) :
    (⟨S100000x64, .f32⟩ : BufTy).Contents (Elt F) :=
  maximumf (addf a (broadcastInDim S100000x64 ![0, 1] bcast_S1x64_S100000x64_0_1 r))
    (broadcastInDim S100000x64 ![] bcast_S_S100000x64 (constant S_ .f32 0x00000000#32))

/-- A bias vector as a one-row matrix. -/
def row128 (b : (⟨S128, .f32⟩ : BufTy).Contents (Elt F)) : (⟨S1x128, .f32⟩ : BufTy).Contents (Elt F) :=
  broadcastInDim S1x128 ![1] bcast_S128_S1x128_1 b

/-- A bias vector as a one-row matrix. -/
def row64 (b : (⟨S64, .f32⟩ : BufTy).Contents (Elt F)) : (⟨S1x64, .f32⟩ : BufTy).Contents (Elt F) :=
  broadcastInDim S1x64 ![1] bcast_S64_S1x64_1 b

/-- One layer with 128 output columns. -/
def layer128 (e : (⟨S2x1600000, .i32⟩ : BufTy).Contents (Elt F)) (x : (⟨S100000x128, .f32⟩ : BufTy).Contents (Elt F))
    (w : (⟨S128x128, .f32⟩ : BufTy).Contents (Elt F)) (b : (⟨S128, .f32⟩ : BufTy).Contents (Elt F)) :
    (⟨S100000x128, .f32⟩ : BufTy).Contents (Elt F) :=
  rowBias128 (agg128 (coef (src e) (dst e)) (src e) (dst e) (lin128 x w)) (row128 b)

/-- The last layer, 64 output columns. -/
def layer64 (e : (⟨S2x1600000, .i32⟩ : BufTy).Contents (Elt F)) (x : (⟨S100000x128, .f32⟩ : BufTy).Contents (Elt F))
    (w : (⟨S128x64, .f32⟩ : BufTy).Contents (Elt F)) (b : (⟨S64, .f32⟩ : BufTy).Contents (Elt F)) :
    (⟨S100000x64, .f32⟩ : BufTy).Contents (Elt F) :=
  rowBias64 (agg64 (coef (src e) (dst e)) (src e) (dst e) (lin64 x w)) (row64 b)

/-- The network: three layers. -/
def net (x : (⟨S100000x128, .f32⟩ : BufTy).Contents (Elt F)) (e : (⟨S2x1600000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (w3 : (⟨S128x64, .f32⟩ : BufTy).Contents (Elt F)) (b3 : (⟨S64, .f32⟩ : BufTy).Contents (Elt F)) :
    (⟨S100000x64, .f32⟩ : BufTy).Contents (Elt F) :=
  layer64 e (layer128 e (layer128 e x w1 b1) w2 b2) w3 b3

end Cert.Gcn

end
-- ==== Proof.SpecParts.lean ====
/-
  The edge coefficients in three steps, as the host computes them before the first device region: the degree's
  positivity mask and the root of max(deg, 1); the weight chosen by the mask; the product of the two gathered weights.
  Each step is a function of the previous step's arrays; composed, they are `Cert.Gcn.dinv` and `Cert.Gcn.coef`.
-/
import proofs.«108545_j75273596830237_1_alg».proof.Proof.Spec

noncomputable section

namespace Cert.Gcn

open Idealize.ShloMosaic Cert.ReferenceIdeal Cert.ReferenceIdeal.Facts₀ Cert.ReferenceIdeal.Facts

variable {F : FTy → Type} [FloatOps F] [Cert.ReferenceIdeal.Facts]

/-- Where the in-degree is positive. -/
def degPos (d : (⟨S1600000, .i32⟩ : BufTy).Contents (Elt F)) : (⟨S100000, .i1⟩ : BufTy).Contents (Elt F) :=
  cmpf .ogt (deg d) (broadcastInDim S100000 ![] bcast_S_S100000 (constant S_ .f32 0x00000000#32))

/-- max(deg, 1)^(-1/2). -/
def degRoot (d : (⟨S1600000, .i32⟩ : BufTy).Contents (Elt F)) : (⟨S100000, .f32⟩ : BufTy).Contents (Elt F) :=
  Host.rsqrt (maximumf (deg d) (broadcastInDim S100000 ![] bcast_S_S100000 (constant S_ .f32 0x3F800000#32)))

/-- The scalar zero. -/
def zeroS : (⟨S_, .f32⟩ : BufTy).Contents (Elt F) := constant S_ .f32 0x00000000#32

/-- The weight: the root where the mask holds, the scalar elsewhere. -/
def dinvOf (p : (⟨S100000, .i1⟩ : BufTy).Contents (Elt F)) (r : (⟨S100000, .f32⟩ : BufTy).Contents (Elt F))
    (z : (⟨S_, .f32⟩ : BufTy).Contents (Elt F)) : (⟨S100000, .f32⟩ : BufTy).Contents (Elt F) :=
  select p r (broadcastInDim S100000 ![] bcast_S_S100000 (id z))

/-- An edge's coefficient from the nodes' weights: the source's times the target's. -/
def coefOf (dv : (⟨S100000, .f32⟩ : BufTy).Contents (Elt F)) (s d : (⟨S1600000, .i32⟩ : BufTy).Contents (Elt F)) :
    (⟨S1600000, .f32⟩ : BufTy).Contents (Elt F) :=
  mulf (Host.gather gather_S100000_S1600000x1_S1600000_n_0_n_n_0_1_1 dv (broadcastInDim S1600000x1 ![0] bcast_S1600000_S1600000x1_0 (wrap s)))
    (Host.gather gather_S100000_S1600000x1_S1600000_n_0_n_n_0_1_1 dv (broadcastInDim S1600000x1 ![0] bcast_S1600000_S1600000x1_0 (wrap d)))

theorem dinv_eq (d : (⟨S1600000, .i32⟩ : BufTy).Contents (Elt F)) : dinv d = dinvOf (degPos d) (degRoot d) zeroS := rfl

theorem coef_eq (s d : (⟨S1600000, .i32⟩ : BufTy).Contents (Elt F)) : coef s d = coefOf (dinv d) s d := rfl

end Cert.Gcn

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«108545_j75273596830237_1_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.LibHostDotSum.lean ====
/-
  The host's matrix product  [n, K] x [K, w] -> [n, w]  (a dot_general contracting the left operand's axis 1 with the
  right operand's axis 0) at the ideal values, read at entry (p, q): the sum over k < K of left(p, k) * right(k, q), for any
  sizes and whichever record of dimension numbers spells the product (the six index facts of a plain product).
-/
import proofs.«108545_j75273596830237_1_alg».proof.Proof.LibMatmulSum

noncomputable section

namespace Cert.LibMatmulSum

open Idealize.ShloMosaic Idealize.ShloMosaic.ValueIdx

/-- The host's plain matrix product at entry (p, q). -/
theorem hostDot_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    Host.dotGeneral d prec l r (ix2 p q) = ∑ k : Fin K, l (ix2 p k) * r (ix2 k q) := by
  simp only [Host.dotGeneral]
  rw [Ideal.dotGeneral_apply]
  exact sum_eq hd l r p q

end Cert.LibMatmulSum

end
-- ==== Proof.LibHostRow.lean ====
/-
  A bias vector on the host, read at an entry, for any sizes and element type: a one-row matrix [1, b] repeated down
  a rows by broadcast_in_dim (dims [0, 1]) reads at (p, c) the row's entry c; a length-b vector laid as a [1, b] row by
  broadcast_in_dim (dims [1]) reads at (u, c) the vector's entry c; and a length-b vector CAST (reshaped) to a [1, b]
  row is that same row, so a kernel fed `b.reshape(1, d)` and a reference that broadcasts `b` see one array.
-/
import Idealize.ShloMosaic.Lib.Pipeline.Value
import Idealize.ShloMosaic.Lib.ValueIdx
import Idealize.ShloMosaic.Lib.ValueLayout

namespace Cert.LibHostRow

open Idealize.ShloMosaic Idealize.ShloMosaic.ValueIdx

variable {α : Type}

/-- A `[1, b]` array repeated down `a` rows by the host reads, at `(p, c)`, the one row at `c`. -/
theorem bcastRows_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A length-`b` vector laid as a `[1, b]` row by the host reads, at `(u, c)`, the vector's entry `c`. -/
theorem bcastRow_apply {b : ℕ} (v : (⟨1, ![b]⟩ : Shape).Idx → α)
    (h : (⟨1, ![b]⟩ : Shape).BroadcastsInDim ⟨2, ![1, b]⟩ (![1] : Fin 1 → Fin 2))
    (u : Fin 1) (c : Fin b) : broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A length-`b` vector cast to a `[1, b]` row is the host's laying of it as a row: both read the vector's entry in
    that column. -/
theorem castRow_eq_bcastRow {b : ℕ} (v : (⟨1, ![b]⟩ : Shape).Idx → α)
    (h : (⟨1, ![b]⟩ : Shape).ShapeCasts ⟨2, ![1, b]⟩)
    (h' : (⟨1, ![b]⟩ : Shape).BroadcastsInDim ⟨2, ![1, b]⟩ (![1] : Fin 1 → Fin 2)) :
    shapeCast ⟨2, ![1, b]⟩ v h = broadcastInDim ⟨2, ![1, b]⟩ ![1] h' v := by
  funext j
  obtain ⟨u, c, rfl⟩ : ∃ (u : Fin 1) (c : Fin b), j = ix2 u c := ⟨j 0, j 1, eq_ix2 j⟩
  rw [shapeCast_a_1a_apply, bcastRow_apply]

end Cert.LibHostRow
-- ==== Proof.RegionLib.lean ====
/-
  Small facts shared by the six device regions: the zero offsets of a whole-buffer access, the host's bias row read at
  an entry (from LibHostRow.lean), and that the reference's two matrix products are plain ones.
-/
import proofs.«108545_j75273596830237_1_alg».proof.ReferenceIdeal
import proofs.«108545_j75273596830237_1_alg».proof.Proof.LibMatmulSum
import proofs.«108545_j75273596830237_1_alg».proof.Proof.LibPlainLists
import proofs.«108545_j75273596830237_1_alg».proof.Proof.LibHostDotSum
import proofs.«108545_j75273596830237_1_alg».proof.Proof.LibHostRow
import Idealize.ShloMosaic.Lib.ValueLayout

noncomputable section

namespace Cert.RegionLib

open Idealize.ShloMosaic Idealize.ShloMosaic.ValueIdx

/-- The offsets `![0, 0]` are zero on both axes. -/
theorem hz : (![0, 0] : Fin 2 → Nat) = fun _ => 0 := funext fun a => by fin_cases a <;> rfl

export Cert.LibHostRow (bcastRows_apply bcastRow_apply castRow_eq_bcastRow)

section
open Cert.ReferenceIdeal
variable [Cert.ReferenceIdeal.Facts]

/-- The reference's 128 x 128 product is a plain matrix product. -/
theorem plainRef128 : Cert.LibMatmulSum.Plain dot_S100000x128_S128x128_S100000x128_1_0_0_1_n_n :=
  Cert.LibMatmulSum.Plain.of_lists _ rfl rfl rfl rfl rfl rfl

/-- The reference's 128 x 64 product is a plain matrix product. -/
theorem plainRef64 : Cert.LibMatmulSum.Plain dot_S100000x128_S128x64_S100000x64_1_0_0_1_n_n :=
  Cert.LibMatmulSum.Plain.of_lists _ rfl rfl rfl rfl rfl rfl
end

end Cert.RegionLib

end
-- ==== Proof.Payload.lean ====
/-
  What one grid point's body computes, read at an entry of its output block, at the ideal values.

  A linear region's body takes a block of 10 000 rows of the features (10 000 x 128) and the whole weight matrix
  (128 x 128, or 128 x 64), narrows both to bf16 — the identity on the ideal values — and multiplies them into a zero
  accumulator: the entry (p, q) of the block it leaves is the sum over k < 128 of x(p, k) * w(k, q).
  A bias region's body takes a block of 10 000 rows and a one-row matrix, repeats the row down the block, adds, and
  cuts below at zero: the entry (p, q) is max(x(p, q) + r(0, q), 0).
-/
import proofs.«108545_j75273596830237_1_alg».proof.Proof.Gen.KernelIdeal.Skeleton
import proofs.«108545_j75273596830237_1_alg».proof.Proof.LibMatmulSum
import proofs.«108545_j75273596830237_1_alg».proof.Proof.LibPlainLists
import Idealize.ShloMosaic.Lib.ValueLayout

noncomputable section

namespace Cert.KernelIdeal.Pay

open Cert.KernelIdeal Cert.KernelIdeal.Gen Idealize.ShloMosaic Idealize.ShloMosaic.ValueIdx

/-- The body's 128 x 128 product is a plain matrix product. -/
theorem plain128 : Cert.LibMatmulSum.Plain dot_S10000x128_S128x128_S10000x128_1_0_0_1_n_n :=
  Cert.LibMatmulSum.Plain.of_lists _ rfl rfl rfl rfl rfl rfl

/-- The body's 128 x 64 product is a plain matrix product. -/
theorem plain64 : Cert.LibMatmulSum.Plain dot_S10000x128_S128x64_S10000x64_1_0_0_1_n_n :=
  Cert.LibMatmulSum.Plain.of_lists _ rfl rfl rfl rfl rfl rfl

/-- First layer's product, entry (p, q) of the block. -/
theorem lin0_at (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  exact Cert.LibMatmulSum.matmul_zero_at plain128 none (truncf .bf16 x0 bitsLt_bf16_f32) (truncf .bf16 x1 bitsLt_bf16_f32) p q

/-- Second layer's product, entry (p, q) of the block. -/
theorem lin2_at (x0 : Vec Ideal S10000x128 .f32) (x1 : Vec Ideal S128x128 .f32) (p : Fin 10000) (q : Fin 128) :
    k2_pay1 (F := Ideal) x0 x1 (ix2 p q) = ∑ k : Fin 128, x0 (ix2 p k) * x1 (ix2 k q) := by
  unfold k2_pay1
  rw [shapeCast_self]
  exact Cert.LibMatmulSum.matmul_zero_at plain128 none (truncf .bf16 x0 bitsLt_bf16_f32) (truncf .bf16 x1 bitsLt_bf16_f32) p q

/-- Third layer's product, entry (p, q) of the block. -/
theorem lin4_at (x0 : Vec Ideal S10000x128 .f32) (x1 : Vec Ideal S128x64 .f32) (p : Fin 10000) (q : Fin 64) :
    k4_pay1 (F := Ideal) x0 x1 (ix2 p q) = ∑ k : Fin 128, x0 (ix2 p k) * x1 (ix2 k q) := by
  unfold k4_pay1
  rw [shapeCast_self]
  exact Cert.LibMatmulSum.matmul_zero_at plain64 none (truncf .bf16 x0 bitsLt_bf16_f32) (truncf .bf16 x1 bitsLt_bf16_f32) p q

/-- First layer's bias step, entry (p, q) of the block. -/
theorem bias1_at (x0 : Vec Ideal S10000x128 .f32) (x1 : Vec Ideal S1x128 .f32) (p : Fin 10000) (q : Fin 128) :
    k1_pay1 (F := Ideal) x0 x1 (ix2 p q) = max (x0 (ix2 p q) + x1 (ix2 (0 : Fin 1) q)) (Ideal.ofBits .f32 0x00000000#32) := by
  unfold k1_pay1
  rw [shapeCast_self, shapeCast_self]
  show max (x0 (ix2 p q) + broadcastTo S10000x128 x1 broadcasts_S1x128_S10000x128 (ix2 p q)) _ = _
  rw [broadcastTo_1b_ab_apply]
  rfl

/-- Second layer's bias step, entry (p, q) of the block. -/
theorem bias3_at (x0 : Vec Ideal S10000x128 .f32) (x1 : Vec Ideal S1x128 .f32) (p : Fin 10000) (q : Fin 128) :
    k3_pay1 (F := Ideal) x0 x1 (ix2 p q) = max (x0 (ix2 p q) + x1 (ix2 (0 : Fin 1) q)) (Ideal.ofBits .f32 0x00000000#32) := by
  unfold k3_pay1
  rw [shapeCast_self, shapeCast_self]
  show max (x0 (ix2 p q) + broadcastTo S10000x128 x1 broadcasts_S1x128_S10000x128 (ix2 p q)) _ = _
  rw [broadcastTo_1b_ab_apply]
  rfl

/-- Third layer's bias step, entry (p, q) of the block. -/
theorem bias5_at (x0 : Vec Ideal S10000x64 .f32) (x1 : Vec Ideal S1x64 .f32) (p : Fin 10000) (q : Fin 64) :
    k5_pay1 (F := Ideal) x0 x1 (ix2 p q) = max (x0 (ix2 p q) + x1 (ix2 (0 : Fin 1) q)) (Ideal.ofBits .f32 0x00000000#32) := by
  unfold k5_pay1
  rw [shapeCast_self, shapeCast_self]
  show max (x0 (ix2 p q) + broadcastTo S10000x64 x1 broadcasts_S1x64_S10000x64 (ix2 p q)) _ = _
  rw [broadcastTo_1b_ab_apply]
  rfl

end Cert.KernelIdeal.Pay

end
-- ==== Proof.Region0.lean ====
/-
  Device region 0 (the first layer's matrix product), as one array function. The region walks ten grid points; point t
  takes rows 10000 t … 10000 t + 9999 of the features and the whole weight matrix, and writes back the same rows of the
  product. Entry (p, q) of the block point t leaves is the sum over k < 128 of x(10000 t + p, k) * w(k, q), which is
  entry (10000 t + p, q) of the host's matrix product of the two whole arrays; the ten blocks tile the array, so after
  the region the output array IS that matrix product of the arrays the region found.
-/
import proofs.«108545_j75273596830237_1_alg».proof.Proof.Gen.KernelIdeal.Frame
import proofs.«108545_j75273596830237_1_alg».proof.Proof.Payload
import proofs.«108545_j75273596830237_1_alg».proof.Proof.Spec
import proofs.«108545_j75273596830237_1_alg».proof.Proof.RegionLib

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Cert.RegionLib

variable [Cert.ReferenceIdeal.Facts]
variable (V : (c : Dev nD) → (b : Ref sig .tc) → Buf (Elt Ideal) ((c : Thread nD τ).loc b))

/-- The printed index maps over the grid: the row windows sit at block row t, the weight window at the origin. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the matrix product of the two arrays as the region finds them. -/
theorem flushed_eq (c : Dev nD) (t : Fin cfg0.N) :
    (dat0 (F := Ideal) V c).flushed 2 t
      = ((cfg0.win 2).blk t).view.read (Elt Ideal) (Cert.Gcn.lin128 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx t
  have ht : t.val < 10 := t.isLt
  funext j
  obtain ⟨p, q, rfl⟩ : ∃ (p : Fin 10000) (q : Fin 128), j = ix2 p q := ⟨j 0, j 1, eq_ix2 j⟩
  refine (Cert.KernelIdeal.Pay.lin0_at (iblk0 V c 0 t) (iblk0 V c 1 t) p q).trans ?_
  have hA : ∀ k : Fin 128, iblk0 V c 0 t (ix2 p k) = V c main_arg0 (ix2 (⟨t.val * 10000 + p.val, by omega⟩ : Fin 100000) k) := fun k => by
    show V c main_arg0 (((cfg0.win 0).blk t).view.emb (ix2 p k)) = _
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  have hB : ∀ k : Fin 128, iblk0 V c 1 t (ix2 k q) = V c main_arg2 (ix2 k q) := fun k => by
    show V c main_arg2 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  have hE : ((cfg0.win 2).blk t).view.emb (ix2 p q) = ix2 (⟨t.val * 10000 + p.val, by omega⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  show _ = Cert.Gcn.lin128 (F := Ideal) (V c main_arg0) (V c main_arg2) (((cfg0.win 2).blk t).view.emb (ix2 p q))
  rw [hE]
  unfold Cert.Gcn.lin128
  rw [Cert.LibMatmulSum.hostDot_at plainRef128]
  exact Finset.sum_congr rfl fun k _ => by rw [hA k, hB k]

/-- An index of the output array is in point t's block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v29).slice (win0_2.rect t)).set ↔ _
  rw [View.set_slice_whole, Rect.mem_set_unit]
  exact Iff.rfl

/-- Row r of the output array is written by point r / 10000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, htv⟩ : ∃ t : Fin cfg0.N, t.val = (i 0).val / 10000 := ⟨⟨(i 0).val / 10000, by show _ < 10; omega⟩, rfl⟩
  obtain ⟨e0, e1, e2, e3, e4, e5⟩ := idx t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the region its output array is the matrix product of the arrays it found. -/
theorem out_eq (c : Dev nD) :
    (dat0 (F := Ideal) V c).arrAt 2 cfg0.N = Cert.Gcn.lin128 (F := Ideal) (V c main_arg0) (V c main_arg2) :=
  (dat0 (F := Ideal) V c).arrAt_eq_of_cover 2 _ (fun t _ => flushed_eq V c t) cover

end Cert.KernelIdeal.Region0

end
-- ==== Proof.Region1.lean ====
/-
  Device region 1 (the first layer's bias step), as one array function. The region walks ten grid points; point t takes
  rows 10000 t … 10000 t + 9999 of the aggregated features and the one-row bias matrix, and writes back the same rows
  with the bias row added and the sum cut below at zero. Entry (p, q) of the block point t leaves is
  max(x(10000 t + p, q) + r(0, q), 0), which is entry (10000 t + p, q) of the host's "repeat the row, add, cut at zero"
  of the two whole arrays; the ten blocks tile the array, so after the region the output array IS that function of
  the arrays the region found.
-/
import proofs.«108545_j75273596830237_1_alg».proof.Proof.Gen.KernelIdeal.Frame
import proofs.«108545_j75273596830237_1_alg».proof.Proof.Payload
import proofs.«108545_j75273596830237_1_alg».proof.Proof.Spec
import proofs.«108545_j75273596830237_1_alg».proof.Proof.RegionLib

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Cert.RegionLib

variable [Cert.ReferenceIdeal.Facts]
variable (V : (c : Dev nD) → (b : Ref sig .tc) → Buf (Elt Ideal) ((c : Thread nD τ).loc b))

/-- The printed index maps over the grid: the row windows sit at block row t, the bias window at the origin. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the bias step of the two arrays as the region finds them. -/
theorem flushed_eq (c : Dev nD) (t : Fin cfg1.N) :
    (dat1 (F := Ideal) V c).flushed 2 t
      = ((cfg1.win 2).blk t).view.read (Elt Ideal) (Cert.Gcn.rowBias128 (F := Ideal) (V c main_v42) (V c main_v43)) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  obtain ⟨e0, e1, e2, e3, e4, e5⟩ := idx t
  have ht : t.val < 10 := t.isLt
  funext j
  obtain ⟨p, q, rfl⟩ : ∃ (p : Fin 10000) (q : Fin 128), j = ix2 p q := ⟨j 0, j 1, eq_ix2 j⟩
  refine (Cert.KernelIdeal.Pay.bias1_at (iblk1 V c 0 t) (iblk1 V c 1 t) p q).trans ?_
  have hA : iblk1 V c 0 t (ix2 p q) = V c main_v42 (ix2 (⟨t.val * 10000 + p.val, by omega⟩ : Fin 100000) q) := by
    show V c main_v42 (((cfg1.win 0).blk t).view.emb (ix2 p q)) = _
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 128 + 1 * q.val = q.val; omega
  have hB : iblk1 V c 1 t (ix2 (0 : Fin 1) q) = V c main_v43 (ix2 (0 : Fin 1) q) := by
    show V c main_v43 (((cfg1.win 1).blk t).view.emb (ix2 (0 : Fin 1) q)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  have hE : ((cfg1.win 2).blk t).view.emb (ix2 p q) = ix2 (⟨t.val * 10000 + p.val, by omega⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 128 + 1 * q.val = q.val; omega
  rw [hA, hB]
  show _ = Cert.Gcn.rowBias128 (F := Ideal) (V c main_v42) (V c main_v43) (((cfg1.win 2).blk t).view.emb (ix2 p q))
  rw [hE]
  unfold Cert.Gcn.rowBias128
  rw [maximumf_apply, addf_apply, bcastRows_apply]
  rfl

/-- An index of the output array is in point t's block iff each coordinate is in the block's range on its axis. -/
theorem mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v44).slice (win1_2.rect t)).set ↔ _
  rw [View.set_slice_whole, Rect.mem_set_unit]
  exact Iff.rfl

/-- Row r of the output array is written by point r / 10000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, htv⟩ : ∃ t : Fin cfg1.N, t.val = (i 0).val / 10000 := ⟨⟨(i 0).val / 10000, by show _ < 10; omega⟩, rfl⟩
  obtain ⟨e0, e1, e2, e3, e4, e5⟩ := idx t
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After the region its output array is the bias step of the arrays it found. -/
theorem out_eq (c : Dev nD) :
    (dat1 (F := Ideal) V c).arrAt 2 cfg1.N = Cert.Gcn.rowBias128 (F := Ideal) (V c main_v42) (V c main_v43) :=
  (dat1 (F := Ideal) V c).arrAt_eq_of_cover 2 _ (fun t _ => flushed_eq V c t) cover

end Cert.KernelIdeal.Region1

end
-- ==== Proof.Region2.lean ====
/-
  Device region 2 (the second layer's matrix product), as one array function. The region walks ten grid points; point t
  takes rows 10000 t … 10000 t + 9999 of the features and the whole weight matrix, and writes back the same rows of the
  product. Entry (p, q) of the block point t leaves is the sum over k < 128 of x(10000 t + p, k) * w(k, q), which is
  entry (10000 t + p, q) of the host's matrix product of the two whole arrays; the ten blocks tile the array, so after
  the region the output array IS that matrix product of the arrays the region found.
-/
import proofs.«108545_j75273596830237_1_alg».proof.Proof.Gen.KernelIdeal.Frame
import proofs.«108545_j75273596830237_1_alg».proof.Proof.Payload
import proofs.«108545_j75273596830237_1_alg».proof.Proof.Spec
import proofs.«108545_j75273596830237_1_alg».proof.Proof.RegionLib

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Cert.RegionLib

variable [Cert.ReferenceIdeal.Facts]
variable (V : (c : Dev nD) → (b : Ref sig .tc) → Buf (Elt Ideal) ((c : Thread nD τ).loc b))

/-- The printed index maps over the grid: the row windows sit at block row t, the weight window at the origin. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the matrix product of the two arrays as the region finds them. -/
theorem flushed_eq (c : Dev nD) (t : Fin cfg2.N) :
    (dat2 (F := Ideal) V c).flushed 2 t
      = ((cfg2.win 2).blk t).view.read (Elt Ideal) (Cert.Gcn.lin128 (F := Ideal) (V c main_v44) (V c main_arg4)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  obtain ⟨e0, e1, e2, e3, e4, e5⟩ := idx t
  have ht : t.val < 10 := t.isLt
  funext j
  obtain ⟨p, q, rfl⟩ : ∃ (p : Fin 10000) (q : Fin 128), j = ix2 p q := ⟨j 0, j 1, eq_ix2 j⟩
  refine (Cert.KernelIdeal.Pay.lin2_at (iblk2 V c 0 t) (iblk2 V c 1 t) p q).trans ?_
  have hA : ∀ k : Fin 128, iblk2 V c 0 t (ix2 p k) = V c main_v44 (ix2 (⟨t.val * 10000 + p.val, by omega⟩ : Fin 100000) k) := fun k => by
    show V c main_v44 (((cfg2.win 0).blk t).view.emb (ix2 p k)) = _
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 128 + 1 * k.val = k.val; omega
  have hB : ∀ k : Fin 128, iblk2 V c 1 t (ix2 k q) = V c main_arg4 (ix2 k q) := fun k => by
    show V c main_arg4 (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  have hE : ((cfg2.win 2).blk t).view.emb (ix2 p q) = ix2 (⟨t.val * 10000 + p.val, by omega⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 128 + 1 * q.val = q.val; omega
  show _ = Cert.Gcn.lin128 (F := Ideal) (V c main_v44) (V c main_arg4) (((cfg2.win 2).blk t).view.emb (ix2 p q))
  rw [hE]
  unfold Cert.Gcn.lin128
  rw [Cert.LibMatmulSum.hostDot_at plainRef128]
  exact Finset.sum_congr rfl fun k _ => by rw [hA k, hB k]

/-- An index of the output array is in point t's block iff each coordinate is in the block's range on its axis. -/
theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v45).slice (win2_2.rect t)).set ↔ _
  rw [View.set_slice_whole, Rect.mem_set_unit]
  exact Iff.rfl

/-- Row r of the output array is written by point r / 10000. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, htv⟩ : ∃ t : Fin cfg2.N, t.val = (i 0).val / 10000 := ⟨⟨(i 0).val / 10000, by show _ < 10; omega⟩, rfl⟩
  obtain ⟨e0, e1, e2, e3, e4, e5⟩ := idx t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- After the region its output array is the matrix product of the arrays it found. -/
theorem out_eq (c : Dev nD) :
    (dat2 (F := Ideal) V c).arrAt 2 cfg2.N = Cert.Gcn.lin128 (F := Ideal) (V c main_v44) (V c main_arg4) :=
  (dat2 (F := Ideal) V c).arrAt_eq_of_cover 2 _ (fun t _ => flushed_eq V c t) cover

end Cert.KernelIdeal.Region2

end
-- ==== Proof.Region3.lean ====
/-
  Device region 3 (the second layer's bias step), as one array function. The region walks ten grid points; point t takes
  rows 10000 t … 10000 t + 9999 of the aggregated features and the one-row bias matrix, and writes back the same rows
  with the bias row added and the sum cut below at zero. Entry (p, q) of the block point t leaves is
  max(x(10000 t + p, q) + r(0, q), 0), which is entry (10000 t + p, q) of the host's "repeat the row, add, cut at zero"
  of the two whole arrays; the ten blocks tile the array, so after the region the output array IS that function of
  the arrays the region found.
-/
import proofs.«108545_j75273596830237_1_alg».proof.Proof.Gen.KernelIdeal.Frame
import proofs.«108545_j75273596830237_1_alg».proof.Proof.Payload
import proofs.«108545_j75273596830237_1_alg».proof.Proof.Spec
import proofs.«108545_j75273596830237_1_alg».proof.Proof.RegionLib

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Cert.RegionLib

variable [Cert.ReferenceIdeal.Facts]
variable (V : (c : Dev nD) → (b : Ref sig .tc) → Buf (Elt Ideal) ((c : Thread nD τ).loc b))

/-- The printed index maps over the grid: the row windows sit at block row t, the bias window at the origin. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the bias step of the two arrays as the region finds them. -/
theorem flushed_eq (c : Dev nD) (t : Fin cfg3.N) :
    (dat3 (F := Ideal) V c).flushed 2 t
      = ((cfg3.win 2).blk t).view.read (Elt Ideal) (Cert.Gcn.rowBias128 (F := Ideal) (V c main_v58) (V c main_v59)) := by
  show (cfg3.win 2).cut (grid3.coords t) ((dat3 V c).after 2 t) = _
  rw [after3_2]
  unfold out3_2
  rw [View.canon_unit_zero hz]
  simp only [View.ld_unit_zero (S := S10000x128) hz, View.ld_unit_zero (S := S1x128) hz]
  obtain ⟨e0, e1, e2, e3, e4, e5⟩ := idx t
  have ht : t.val < 10 := t.isLt
  funext j
  obtain ⟨p, q, rfl⟩ : ∃ (p : Fin 10000) (q : Fin 128), j = ix2 p q := ⟨j 0, j 1, eq_ix2 j⟩
  refine (Cert.KernelIdeal.Pay.bias3_at (iblk3 V c 0 t) (iblk3 V c 1 t) p q).trans ?_
  have hA : iblk3 V c 0 t (ix2 p q) = V c main_v58 (ix2 (⟨t.val * 10000 + p.val, by omega⟩ : Fin 100000) q) := by
    show V c main_v58 (((cfg3.win 0).blk t).view.emb (ix2 p q)) = _
    refine congrArg _ (funext fun a => Fin.ext ?_)
    match a with
    | ⟨0, _⟩ => show win3_0.index t (0 : Fin 2) * 10000 + 1 * p.val = t.val * 10000 + p.val; omega
    | ⟨1, _⟩ => show win3_0.index t (1 : Fin 2) * 128 + 1 * q.val = q.val; omega
  have hB : iblk3 V c 1 t (ix2 (0 : Fin 1) q) = V c main_v59 (ix2 (0 : Fin 1) q) := by
    show V c main_v59 (((cfg3.win 1).blk t).view.emb (ix2 (0 : Fin 1) q)) = _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  have hE : ((cfg3.win 2).blk t).view.emb (ix2 p q) = ix2 (⟨t.val * 10000 + p.val, by omega⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 128 + 1 * q.val = q.val; omega
  rw [hA, hB]
  show _ = Cert.Gcn.rowBias128 (F := Ideal) (V c main_v58) (V c main_v59) (((cfg3.win 2).blk t).view.emb (ix2 p q))
  rw [hE]
  unfold Cert.Gcn.rowBias128
  rw [maximumf_apply, addf_apply, bcastRows_apply]
  rfl

/-- An index of the output array is in point t's block iff each coordinate is in the block's range on its axis. -/
theorem mem_blk (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v60).slice (win3_2.rect t)).set ↔ _
  rw [View.set_slice_whole, Rect.mem_set_unit]
  exact Iff.rfl

/-- Row r of the output array is written by point r / 10000. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, htv⟩ : ∃ t : Fin cfg3.N, t.val = (i 0).val / 10000 := ⟨⟨(i 0).val / 10000, by show _ < 10; omega⟩, rfl⟩
  obtain ⟨e0, e1, e2, e3, e4, e5⟩ := idx t
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- After the region its output array is the bias step of the arrays it found. -/
theorem out_eq (c : Dev nD) :
    (dat3 (F := Ideal) V c).arrAt 2 cfg3.N = Cert.Gcn.rowBias128 (F := Ideal) (V c main_v58) (V c main_v59) :=
  (dat3 (F := Ideal) V c).arrAt_eq_of_cover 2 _ (fun t _ => flushed_eq V c t) cover

end Cert.KernelIdeal.Region3

end
-- ==== Proof.Region4.lean ====
/-
  Device region 4 (the third layer's matrix product), as one array function. The region walks ten grid points; point t
  takes rows 10000 t … 10000 t + 9999 of the features and the whole weight matrix, and writes back the same rows of the
  product. Entry (p, q) of the block point t leaves is the sum over k < 128 of x(10000 t + p, k) * w(k, q), which is
  entry (10000 t + p, q) of the host's matrix product of the two whole arrays; the ten blocks tile the array, so after
  the region the output array IS that matrix product of the arrays the region found.
-/
import proofs.«108545_j75273596830237_1_alg».proof.Proof.Gen.KernelIdeal.Frame
import proofs.«108545_j75273596830237_1_alg».proof.Proof.Payload
import proofs.«108545_j75273596830237_1_alg».proof.Proof.Spec
import proofs.«108545_j75273596830237_1_alg».proof.Proof.RegionLib

set_option maxRecDepth 16384

noncomputable section

namespace Cert.KernelIdeal.Region4

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Cert.RegionLib

variable [Cert.ReferenceIdeal.Facts]
variable (V : (c : Dev nD) → (b : Ref sig .tc) → Buf (Elt Ideal) ((c : Thread nD τ).loc b))

/-- The printed index maps over the grid: the row windows sit at block row t, the weight window at the origin. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the matrix product of the two arrays as the region finds them. -/
theorem flushed_eq (c : Dev nD) (t : Fin cfg4.N) :
    (dat4 (F := Ideal) V c).flushed 2 t
      = ((cfg4.win 2).blk t).view.read (Elt Ideal) (Cert.Gcn.lin64 (F := Ideal) (V c main_v60) (V c main_arg6)) := by
  show (cfg4.win 2).cut (grid4.coords t) ((dat4 V c).after 2 t) = _
  rw [after4_2]
  unfold out4_2
  rw [View.canon_unit_zero hz]
  simp only [View.ld_unit_zero (S := S10000x128) hz, View.ld_unit_zero (S := S128x64) hz]
  obtain ⟨e0, e1, e2, e3, e4, e5⟩ := idx t
  have ht : t.val < 10 := t.isLt
  funext j
  obtain ⟨p, q, rfl⟩ : ∃ (p : Fin 10000) (q : Fin 64), j = ix2 p q := ⟨j 0, j 1, eq_ix2 j⟩
  refine (Cert.KernelIdeal.Pay.lin4_at (iblk4 V c 0 t) (iblk4 V c 1 t) p q).trans ?_
  have hA : ∀ k : Fin 128, iblk4 V c 0 t (ix2 p k) = V c main_v60 (ix2 (⟨t.val * 10000 + p.val, by omega⟩ : Fin 100000) k) := fun k => by
    show V c main_v60 (((cfg4.win 0).blk t).view.emb (ix2 p k)) = _
    refine congrArg _ (funext fun a => Fin.ext ?_)
    match a with
    | ⟨0, _⟩ => show win4_0.index t (0 : Fin 2) * 10000 + 1 * p.val = t.val * 10000 + p.val; omega
    | ⟨1, _⟩ => show win4_0.index t (1 : Fin 2) * 128 + 1 * k.val = k.val; omega
  have hB : ∀ k : Fin 128, iblk4 V c 1 t (ix2 k q) = V c main_arg6 (ix2 k q) := fun k => by
    show V c main_arg6 (((cfg4.win 1).blk t).view.emb (ix2 k q)) = _
    refine congrArg _ (funext fun a => Fin.ext ?_)
    match a with
    | ⟨0, _⟩ => show win4_1.index t (0 : Fin 2) * 128 + 1 * k.val = k.val; omega
    | ⟨1, _⟩ => show win4_1.index t (1 : Fin 2) * 64 + 1 * q.val = q.val; omega
  have hE : ((cfg4.win 2).blk t).view.emb (ix2 p q) = ix2 (⟨t.val * 10000 + p.val, by omega⟩ : Fin 100000) q := by
    funext a; apply Fin.ext
    match a with
    | ⟨0, _⟩ => show win4_2.index t (0 : Fin 2) * 10000 + 1 * p.val = t.val * 10000 + p.val; omega
    | ⟨1, _⟩ => show win4_2.index t (1 : Fin 2) * 64 + 1 * q.val = q.val; omega
  show _ = Cert.Gcn.lin64 (F := Ideal) (V c main_v60) (V c main_arg6) (((cfg4.win 2).blk t).view.emb (ix2 p q))
  rw [hE]
  unfold Cert.Gcn.lin64
  rw [Cert.LibMatmulSum.hostDot_at plainRef64]
  exact Finset.sum_congr rfl fun k _ => by rw [hA k, hB k]

/-- An index of the output array is in point t's block iff each coordinate is in the block's range on its axis. -/
theorem mem_blk (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v61).slice (win4_2.rect t)).set ↔ _
  rw [View.set_slice_whole, Rect.mem_set_unit]
  exact Iff.rfl

/-- Row r of the output array is written by point r / 10000. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, htv⟩ : ∃ t : Fin cfg4.N, t.val = (i 0).val / 10000 := ⟨⟨(i 0).val / 10000, by show _ < 10; omega⟩, rfl⟩
  obtain ⟨e0, e1, e2, e3, e4, e5⟩ := idx t
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- After the region its output array is the matrix product of the arrays it found. -/
theorem out_eq (c : Dev nD) :
    (dat4 (F := Ideal) V c).arrAt 2 cfg4.N = Cert.Gcn.lin64 (F := Ideal) (V c main_v60) (V c main_arg6) :=
  (dat4 (F := Ideal) V c).arrAt_eq_of_cover 2 _ (fun t _ => flushed_eq V c t) cover

end Cert.KernelIdeal.Region4

end
-- ==== Proof.Region5.lean ====
/-
  Device region 5 (the third layer's bias step), as one array function. The region walks ten grid points; point t takes
  rows 10000 t … 10000 t + 9999 of the aggregated features and the one-row bias matrix, and writes back the same rows
  with the bias row added and the sum cut below at zero. Entry (p, q) of the block point t leaves is
  max(x(10000 t + p, q) + r(0, q), 0), which is entry (10000 t + p, q) of the host's "repeat the row, add, cut at zero"
  of the two whole arrays; the ten blocks tile the array, so after the region the output array IS that function of
  the arrays the region found.
-/
import proofs.«108545_j75273596830237_1_alg».proof.Proof.Gen.KernelIdeal.Frame
import proofs.«108545_j75273596830237_1_alg».proof.Proof.Payload
import proofs.«108545_j75273596830237_1_alg».proof.Proof.Spec
import proofs.«108545_j75273596830237_1_alg».proof.Proof.RegionLib

set_option maxRecDepth 16384

noncomputable section

namespace Cert.KernelIdeal.Region5

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Cert.RegionLib

variable [Cert.ReferenceIdeal.Facts]
variable (V : (c : Dev nD) → (b : Ref sig .tc) → Buf (Elt Ideal) ((c : Thread nD τ).loc b))

/-- The printed index maps over the grid: the row windows sit at block row t, the bias window at the origin. -/
theorem idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the bias step of the two arrays as the region finds them. -/
theorem flushed_eq (c : Dev nD) (t : Fin cfg5.N) :
    (dat5 (F := Ideal) V c).flushed 2 t
      = ((cfg5.win 2).blk t).view.read (Elt Ideal) (Cert.Gcn.rowBias64 (F := Ideal) (V c main_v74) (V c main_v75)) := by
  show (cfg5.win 2).cut (grid5.coords t) ((dat5 V c).after 2 t) = _
  rw [after5_2]
  unfold out5_2
  rw [View.canon_unit_zero hz]
  simp only [View.ld_unit_zero (S := S10000x64) hz, View.ld_unit_zero (S := S1x64) hz]
  obtain ⟨e0, e1, e2, e3, e4, e5⟩ := idx t
  have ht : t.val < 10 := t.isLt
  funext j
  obtain ⟨p, q, rfl⟩ : ∃ (p : Fin 10000) (q : Fin 64), j = ix2 p q := ⟨j 0, j 1, eq_ix2 j⟩
  refine (Cert.KernelIdeal.Pay.bias5_at (iblk5 V c 0 t) (iblk5 V c 1 t) p q).trans ?_
  have hA : iblk5 V c 0 t (ix2 p q) = V c main_v74 (ix2 (⟨t.val * 10000 + p.val, by omega⟩ : Fin 100000) q) := by
    show V c main_v74 (((cfg5.win 0).blk t).view.emb (ix2 p q)) = _
    refine congrArg _ (funext fun a => Fin.ext ?_)
    match a with
    | ⟨0, _⟩ => show win5_0.index t (0 : Fin 2) * 10000 + 1 * p.val = t.val * 10000 + p.val; omega
    | ⟨1, _⟩ => show win5_0.index t (1 : Fin 2) * 64 + 1 * q.val = q.val; omega
  have hB : iblk5 V c 1 t (ix2 (0 : Fin 1) q) = V c main_v75 (ix2 (0 : Fin 1) q) := by
    show V c main_v75 (((cfg5.win 1).blk t).view.emb (ix2 (0 : Fin 1) q)) = _
    refine congrArg _ (funext fun a => Fin.ext ?_)
    match a with
    | ⟨0, _⟩ => show win5_1.index t (0 : Fin 2) * 1 + 1 * 0 = 0; omega
    | ⟨1, _⟩ => show win5_1.index t (1 : Fin 2) * 64 + 1 * q.val = q.val; omega
  have hE : ((cfg5.win 2).blk t).view.emb (ix2 p q) = ix2 (⟨t.val * 10000 + p.val, by omega⟩ : Fin 100000) q := by
    funext a; apply Fin.ext
    match a with
    | ⟨0, _⟩ => show win5_2.index t (0 : Fin 2) * 10000 + 1 * p.val = t.val * 10000 + p.val; omega
    | ⟨1, _⟩ => show win5_2.index t (1 : Fin 2) * 64 + 1 * q.val = q.val; omega
  rw [hA, hB]
  show _ = Cert.Gcn.rowBias64 (F := Ideal) (V c main_v74) (V c main_v75) (((cfg5.win 2).blk t).view.emb (ix2 p q))
  rw [hE]
  unfold Cert.Gcn.rowBias64
  rw [maximumf_apply, addf_apply, bcastRows_apply]
  rfl

/-- An index of the output array is in point t's block iff each coordinate is in the block's range on its axis. -/
theorem mem_blk (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v76).slice (win5_2.rect t)).set ↔ _
  rw [View.set_slice_whole, Rect.mem_set_unit]
  exact Iff.rfl

/-- Row r of the output array is written by point r / 10000. -/
theorem cover (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, htv⟩ : ∃ t : Fin cfg5.N, t.val = (i 0).val / 10000 := ⟨⟨(i 0).val / 10000, by show _ < 10; omega⟩, rfl⟩
  obtain ⟨e0, e1, e2, e3, e4, e5⟩ := idx t
  refine ⟨t, flush5_2 t, ?_⟩
  rw [mem_blk]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- After the region its output array is the bias step of the arrays it found. -/
theorem out_eq (c : Dev nD) :
    (dat5 (F := Ideal) V c).arrAt 2 cfg5.N = Cert.Gcn.rowBias64 (F := Ideal) (V c main_v74) (V c main_v75) :=
  (dat5 (F := Ideal) V c).arrAt_eq_of_cover 2 _ (fun t _ => flushed_eq V c t) cover

end Cert.KernelIdeal.Region5

end
-- ==== Proof.KernelValue.lean ====
/-
  What the kernel program leaves in its result array, as a function of the argument arrays.

  The buffer contents are followed through the program's segments. Before the first region the host has cut the edge
  array into its source and target rows and computed every edge's coefficient; none of these, and no argument, is
  written again, so each boundary finds them as they were. Each linear region leaves the matrix product of the features
  it finds with its weight matrix; the host operations after it gather the product's rows along the edges, scale them
  and add them up at the targets; the bias region after that adds the bias row and cuts at zero. The bias vector reaches
  its region cast to a one-row matrix, which reads the same entries as the host's laying of it as a row. Three layers
  of this are the network of Spec.lean.
-/
import proofs.«108545_j75273596830237_1_alg».proof.Proof.Gen.KernelIdeal.Frame
import proofs.«108545_j75273596830237_1_alg».proof.Proof.Spec
import proofs.«108545_j75273596830237_1_alg».proof.Proof.SpecParts
import proofs.«108545_j75273596830237_1_alg».proof.Proof.RegionLib
import proofs.«108545_j75273596830237_1_alg».proof.Proof.Region0
import proofs.«108545_j75273596830237_1_alg».proof.Proof.Region1
import proofs.«108545_j75273596830237_1_alg».proof.Proof.Region2
import proofs.«108545_j75273596830237_1_alg».proof.Proof.Region3
import proofs.«108545_j75273596830237_1_alg».proof.Proof.Region4
import proofs.«108545_j75273596830237_1_alg».proof.Proof.Region5
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.ShloMosaic.StableHlo
open Idealize.SL Idealize.SL.Sem

variable [Cert.ReferenceIdeal.Facts]
variable (m : (ℓ : Loc nD τ sig) → Buf (Elt Ideal) ℓ) (ρ : Dev nD → PrngReg) (c : Dev nD)

/-- The edges' source nodes, target nodes and coefficients, of the launch memory's edge array. -/
abbrev Sr := Cert.Gcn.src (F := Ideal) (m ((c : Thread nD τ).loc main_arg1))
abbrev Ds := Cert.Gcn.dst (F := Ideal) (m ((c : Thread nD τ).loc main_arg1))
abbrev Nm := Cert.Gcn.coef (F := Ideal) (Sr m c) (Ds m c)
/-- The first and the second layer's outputs. -/
abbrev L1 := Cert.Gcn.layer128 (F := Ideal) (m ((c : Thread nD τ).loc main_arg1)) (m ((c : Thread nD τ).loc main_arg0)) (m ((c : Thread nD τ).loc main_arg2)) (m ((c : Thread nD τ).loc main_arg3))
abbrev L2 := Cert.Gcn.layer128 (F := Ideal) (m ((c : Thread nD τ).loc main_arg1)) (L1 m c) (m ((c : Thread nD τ).loc main_arg4)) (m ((c : Thread nD τ).loc main_arg5))

/-! ## Before the first region: the arguments as launched, the edge rows and the coefficients computed -/

theorem w3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results <;> rfl
theorem w3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results <;> rfl
theorem w3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results <;> rfl
theorem w3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results <;> rfl
theorem w3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results <;> rfl
theorem w3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results <;> rfl
theorem w3_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results <;> rfl
theorem w3_v1 : W3 m ρ c (Proc.devRef .tc main_v1) = Sr m c := by
  show StableHlo.after hostOps0_2 (StableHlo.after hostOps0_1 (StableHlo.after hostOps0 (W0 m ρ c))) (Proc.devRef .tc main_v1) = _
  after_results <;> rfl
theorem w3_v3 : W3 m ρ c (Proc.devRef .tc main_v3) = Ds m c := by
  show StableHlo.after hostOps0_2 (StableHlo.after hostOps0_1 (StableHlo.after hostOps0 (W0 m ρ c))) (Proc.devRef .tc main_v3) = _
  after_results <;> rfl

/-! ### The coefficients, stretch by stretch over any contents `Z`: the degree's mask and root, the weights, the products -/

section Stretches
variable (Z : Valuation τ sig (Elt Ideal))

theorem s0_v1 : StableHlo.after hostOps0 Z (Proc.devRef .tc main_v1) = Cert.Gcn.src (F := Ideal) (Z (Proc.devRef .tc main_arg1)) := by
  after_results <;> rfl
theorem s0_v3 : StableHlo.after hostOps0 Z (Proc.devRef .tc main_v3) = Cert.Gcn.dst (F := Ideal) (Z (Proc.devRef .tc main_arg1)) := by
  after_results <;> rfl
theorem s0_v9 : StableHlo.after hostOps0 Z (Proc.devRef .tc main_v9)
    = Cert.Gcn.degPos (F := Ideal) (Cert.Gcn.dst (F := Ideal) (Z (Proc.devRef .tc main_arg1))) := by
  after_results <;> rfl
theorem s0_v12 : StableHlo.after hostOps0 Z (Proc.devRef .tc main_v12)
    = Cert.Gcn.degRoot (F := Ideal) (Cert.Gcn.dst (F := Ideal) (Z (Proc.devRef .tc main_arg1))) := by
  after_results <;> rfl
theorem s0_cst3 : StableHlo.after hostOps0 Z (Proc.devRef .tc main_cst_3) = Cert.Gcn.zeroS (F := Ideal) := by
  after_results <;> rfl
theorem s1_v13 : StableHlo.after hostOps0_1 Z (Proc.devRef .tc main_v13)
    = Cert.Gcn.dinvOf (F := Ideal) (Z (Proc.devRef .tc main_v9)) (Z (Proc.devRef .tc main_v12)) (Z (Proc.devRef .tc main_cst_3)) := by
  after_results <;> rfl
theorem s1_v1 : StableHlo.after hostOps0_1 Z (Proc.devRef .tc main_v1) = Z (Proc.devRef .tc main_v1) := by
  after_results <;> rfl
theorem s1_v3 : StableHlo.after hostOps0_1 Z (Proc.devRef .tc main_v3) = Z (Proc.devRef .tc main_v3) := by
  after_results <;> rfl
set_option maxHeartbeats 4000000 in
theorem s2_v28 : StableHlo.after hostOps0_2 Z (Proc.devRef .tc main_v28)
    = Cert.Gcn.coefOf (F := Ideal) (Z (Proc.devRef .tc main_v13)) (Z (Proc.devRef .tc main_v1)) (Z (Proc.devRef .tc main_v3)) := by
  after_results_simp <;> rfl

end Stretches

theorem w3_v28 : W3 m ρ c (Proc.devRef .tc main_v28) = Nm m c := by
  show StableHlo.after hostOps0_2 (StableHlo.after hostOps0_1 (StableHlo.after hostOps0 (W0 m ρ c))) (Proc.devRef .tc main_v28) = _
  rw [s2_v28, s1_v13, s1_v1, s1_v3, s0_v9, s0_v12, s0_cst3, s0_v1, s0_v3]
  rfl

/-! ## What is read later is carried across every boundary unchanged -/

theorem w4_arg3 : W4 m ρ c (Proc.devRef .tc main_arg3) = m ((c : Thread nD τ).loc main_arg3) :=
  (W4_of_ne m ρ c main_arg3 (by decide)).trans (w3_arg3 m ρ c)
theorem w4_arg4 : W4 m ρ c (Proc.devRef .tc main_arg4) = m ((c : Thread nD τ).loc main_arg4) :=
  (W4_of_ne m ρ c main_arg4 (by decide)).trans (w3_arg4 m ρ c)
theorem w5_arg4 : W5 m ρ c (Proc.devRef .tc main_arg4) = m ((c : Thread nD τ).loc main_arg4) := by
  show StableHlo.after hostOps1 (W4 m ρ c) (Proc.devRef .tc main_arg4) = _
  after_results
  exact w4_arg4 m ρ c
theorem w6_arg4 : W6 m ρ c (Proc.devRef .tc main_arg4) = m ((c : Thread nD τ).loc main_arg4) :=
  (W6_of_ne m ρ c main_arg4 (by decide)).trans (w5_arg4 m ρ c)
theorem w4_arg5 : W4 m ρ c (Proc.devRef .tc main_arg5) = m ((c : Thread nD τ).loc main_arg5) :=
  (W4_of_ne m ρ c main_arg5 (by decide)).trans (w3_arg5 m ρ c)
theorem w5_arg5 : W5 m ρ c (Proc.devRef .tc main_arg5) = m ((c : Thread nD τ).loc main_arg5) := by
  show StableHlo.after hostOps1 (W4 m ρ c) (Proc.devRef .tc main_arg5) = _
  after_results
  exact w4_arg5 m ρ c
theorem w6_arg5 : W6 m ρ c (Proc.devRef .tc main_arg5) = m ((c : Thread nD τ).loc main_arg5) :=
  (W6_of_ne m ρ c main_arg5 (by decide)).trans (w5_arg5 m ρ c)
theorem w7_arg5 : W7 m ρ c (Proc.devRef .tc main_arg5) = m ((c : Thread nD τ).loc main_arg5) :=
  (W7_of_ne m ρ c main_arg5 (by decide)).trans (w6_arg5 m ρ c)
theorem w4_arg6 : W4 m ρ c (Proc.devRef .tc main_arg6) = m ((c : Thread nD τ).loc main_arg6) :=
  (W4_of_ne m ρ c main_arg6 (by decide)).trans (w3_arg6 m ρ c)
theorem w5_arg6 : W5 m ρ c (Proc.devRef .tc main_arg6) = m ((c : Thread nD τ).loc main_arg6) := by
  show StableHlo.after hostOps1 (W4 m ρ c) (Proc.devRef .tc main_arg6) = _
  after_results
  exact w4_arg6 m ρ c
theorem w6_arg6 : W6 m ρ c (Proc.devRef .tc main_arg6) = m ((c : Thread nD τ).loc main_arg6) :=
  (W6_of_ne m ρ c main_arg6 (by decide)).trans (w5_arg6 m ρ c)
theorem w7_arg6 : W7 m ρ c (Proc.devRef .tc main_arg6) = m ((c : Thread nD τ).loc main_arg6) :=
  (W7_of_ne m ρ c main_arg6 (by decide)).trans (w6_arg6 m ρ c)
theorem w8_arg6 : W8 m ρ c (Proc.devRef .tc main_arg6) = m ((c : Thread nD τ).loc main_arg6) := by
  show StableHlo.after hostOps3 (W7 m ρ c) (Proc.devRef .tc main_arg6) = _
  after_results
  exact w7_arg6 m ρ c
theorem w9_arg6 : W9 m ρ c (Proc.devRef .tc main_arg6) = m ((c : Thread nD τ).loc main_arg6) :=
  (W9_of_ne m ρ c main_arg6 (by decide)).trans (w8_arg6 m ρ c)
theorem w4_arg7 : W4 m ρ c (Proc.devRef .tc main_arg7) = m ((c : Thread nD τ).loc main_arg7) :=
  (W4_of_ne m ρ c main_arg7 (by decide)).trans (w3_arg7 m ρ c)
theorem w5_arg7 : W5 m ρ c (Proc.devRef .tc main_arg7) = m ((c : Thread nD τ).loc main_arg7) := by
  show StableHlo.after hostOps1 (W4 m ρ c) (Proc.devRef .tc main_arg7) = _
  after_results
  exact w4_arg7 m ρ c
theorem w6_arg7 : W6 m ρ c (Proc.devRef .tc main_arg7) = m ((c : Thread nD τ).loc main_arg7) :=
  (W6_of_ne m ρ c main_arg7 (by decide)).trans (w5_arg7 m ρ c)
theorem w7_arg7 : W7 m ρ c (Proc.devRef .tc main_arg7) = m ((c : Thread nD τ).loc main_arg7) :=
  (W7_of_ne m ρ c main_arg7 (by decide)).trans (w6_arg7 m ρ c)
theorem w8_arg7 : W8 m ρ c (Proc.devRef .tc main_arg7) = m ((c : Thread nD τ).loc main_arg7) := by
  show StableHlo.after hostOps3 (W7 m ρ c) (Proc.devRef .tc main_arg7) = _
  after_results
  exact w7_arg7 m ρ c
theorem w9_arg7 : W9 m ρ c (Proc.devRef .tc main_arg7) = m ((c : Thread nD τ).loc main_arg7) :=
  (W9_of_ne m ρ c main_arg7 (by decide)).trans (w8_arg7 m ρ c)
theorem w10_arg7 : W10 m ρ c (Proc.devRef .tc main_arg7) = m ((c : Thread nD τ).loc main_arg7) :=
  (W10_of_ne m ρ c main_arg7 (by decide)).trans (w9_arg7 m ρ c)
theorem w4_v1 : W4 m ρ c (Proc.devRef .tc main_v1) = Sr m c :=
  (W4_of_ne m ρ c main_v1 (by decide)).trans (w3_v1 m ρ c)
theorem w5_v1 : W5 m ρ c (Proc.devRef .tc main_v1) = Sr m c := by
  show StableHlo.after hostOps1 (W4 m ρ c) (Proc.devRef .tc main_v1) = _
  after_results
  exact w4_v1 m ρ c
theorem w6_v1 : W6 m ρ c (Proc.devRef .tc main_v1) = Sr m c :=
  (W6_of_ne m ρ c main_v1 (by decide)).trans (w5_v1 m ρ c)
theorem w7_v1 : W7 m ρ c (Proc.devRef .tc main_v1) = Sr m c :=
  (W7_of_ne m ρ c main_v1 (by decide)).trans (w6_v1 m ρ c)
theorem w8_v1 : W8 m ρ c (Proc.devRef .tc main_v1) = Sr m c := by
  show StableHlo.after hostOps3 (W7 m ρ c) (Proc.devRef .tc main_v1) = _
  after_results
  exact w7_v1 m ρ c
theorem w9_v1 : W9 m ρ c (Proc.devRef .tc main_v1) = Sr m c :=
  (W9_of_ne m ρ c main_v1 (by decide)).trans (w8_v1 m ρ c)
theorem w10_v1 : W10 m ρ c (Proc.devRef .tc main_v1) = Sr m c :=
  (W10_of_ne m ρ c main_v1 (by decide)).trans (w9_v1 m ρ c)
theorem w4_v3 : W4 m ρ c (Proc.devRef .tc main_v3) = Ds m c :=
  (W4_of_ne m ρ c main_v3 (by decide)).trans (w3_v3 m ρ c)
theorem w5_v3 : W5 m ρ c (Proc.devRef .tc main_v3) = Ds m c := by
  show StableHlo.after hostOps1 (W4 m ρ c) (Proc.devRef .tc main_v3) = _
  after_results
  exact w4_v3 m ρ c
theorem w6_v3 : W6 m ρ c (Proc.devRef .tc main_v3) = Ds m c :=
  (W6_of_ne m ρ c main_v3 (by decide)).trans (w5_v3 m ρ c)
theorem w7_v3 : W7 m ρ c (Proc.devRef .tc main_v3) = Ds m c :=
  (W7_of_ne m ρ c main_v3 (by decide)).trans (w6_v3 m ρ c)
theorem w8_v3 : W8 m ρ c (Proc.devRef .tc main_v3) = Ds m c := by
  show StableHlo.after hostOps3 (W7 m ρ c) (Proc.devRef .tc main_v3) = _
  after_results
  exact w7_v3 m ρ c
theorem w9_v3 : W9 m ρ c (Proc.devRef .tc main_v3) = Ds m c :=
  (W9_of_ne m ρ c main_v3 (by decide)).trans (w8_v3 m ρ c)
theorem w10_v3 : W10 m ρ c (Proc.devRef .tc main_v3) = Ds m c :=
  (W10_of_ne m ρ c main_v3 (by decide)).trans (w9_v3 m ρ c)
theorem w4_v28 : W4 m ρ c (Proc.devRef .tc main_v28) = Nm m c :=
  (W4_of_ne m ρ c main_v28 (by decide)).trans (w3_v28 m ρ c)
theorem w5_v28 : W5 m ρ c (Proc.devRef .tc main_v28) = Nm m c := by
  show StableHlo.after hostOps1 (W4 m ρ c) (Proc.devRef .tc main_v28) = _
  after_results
  exact w4_v28 m ρ c
theorem w6_v28 : W6 m ρ c (Proc.devRef .tc main_v28) = Nm m c :=
  (W6_of_ne m ρ c main_v28 (by decide)).trans (w5_v28 m ρ c)
theorem w7_v28 : W7 m ρ c (Proc.devRef .tc main_v28) = Nm m c :=
  (W7_of_ne m ρ c main_v28 (by decide)).trans (w6_v28 m ρ c)
theorem w8_v28 : W8 m ρ c (Proc.devRef .tc main_v28) = Nm m c := by
  show StableHlo.after hostOps3 (W7 m ρ c) (Proc.devRef .tc main_v28) = _
  after_results
  exact w7_v28 m ρ c
theorem w9_v28 : W9 m ρ c (Proc.devRef .tc main_v28) = Nm m c :=
  (W9_of_ne m ρ c main_v28 (by decide)).trans (w8_v28 m ρ c)
theorem w10_v28 : W10 m ρ c (Proc.devRef .tc main_v28) = Nm m c :=
  (W10_of_ne m ρ c main_v28 (by decide)).trans (w9_v28 m ρ c)

/-! ## The layers -/

/-- Region 0 leaves the first matrix product. -/
theorem w4_v29 : W4 m ρ c (Proc.devRef .tc main_v29) = Cert.Gcn.lin128 (F := Ideal) (m ((c : Thread nD τ).loc main_arg0)) (m ((c : Thread nD τ).loc main_arg2)) := by
  refine (W4_arr m ρ c 2).trans ?_
  refine (Cert.KernelIdeal.Region0.out_eq (V3 m ρ) c).trans ?_
  show Cert.Gcn.lin128 (F := Ideal) (W3 m ρ c (Proc.devRef .tc main_arg0)) (W3 m ρ c (Proc.devRef .tc main_arg2)) = _
  rw [w3_arg0, w3_arg2]

set_option maxHeartbeats 4000000 in
/-- The host aggregates it over the edges. -/
theorem w5_v42 : W5 m ρ c (Proc.devRef .tc main_v42)
    = Cert.Gcn.agg128 (F := Ideal) (Nm m c) (Sr m c) (Ds m c) (Cert.Gcn.lin128 (F := Ideal) (m ((c : Thread nD τ).loc main_arg0)) (m ((c : Thread nD τ).loc main_arg2))) := by
  show StableHlo.after hostOps1 (W4 m ρ c) (Proc.devRef .tc main_v42) = _
  after_results_simp
  rw [w4_v28, w4_v1, w4_v3, w4_v29]
  rfl

/-- The first bias vector as a one-row matrix. -/
theorem w5_v43 : W5 m ρ c (Proc.devRef .tc main_v43) = Cert.Gcn.row128 (F := Ideal) (m ((c : Thread nD τ).loc main_arg3)) := by
  show StableHlo.after hostOps1 (W4 m ρ c) (Proc.devRef .tc main_v43) = _
  after_results
  rw [w4_arg3]
  exact Cert.RegionLib.castRow_eq_bcastRow _ _ _

/-- Region 1 leaves the first layer's output. -/
theorem w6_v44 : W6 m ρ c (Proc.devRef .tc main_v44) = L1 m c := by
  refine (W6_arr m ρ c 2).trans ?_
  refine (Cert.KernelIdeal.Region1.out_eq (V5 m ρ) c).trans ?_
  show Cert.Gcn.rowBias128 (F := Ideal) (W5 m ρ c (Proc.devRef .tc main_v42)) (W5 m ρ c (Proc.devRef .tc main_v43)) = _
  rw [w5_v42, w5_v43]
  rfl

/-- Region 2 leaves the second matrix product. -/
theorem w7_v45 : W7 m ρ c (Proc.devRef .tc main_v45) = Cert.Gcn.lin128 (F := Ideal) (L1 m c) (m ((c : Thread nD τ).loc main_arg4)) := by
  refine (W7_arr m ρ c 2).trans ?_
  refine (Cert.KernelIdeal.Region2.out_eq (V6 m ρ) c).trans ?_
  show Cert.Gcn.lin128 (F := Ideal) (W6 m ρ c (Proc.devRef .tc main_v44)) (W6 m ρ c (Proc.devRef .tc main_arg4)) = _
  rw [w6_v44, w6_arg4]

set_option maxHeartbeats 4000000 in
/-- The host aggregates it over the edges. -/
theorem w8_v58 : W8 m ρ c (Proc.devRef .tc main_v58)
    = Cert.Gcn.agg128 (F := Ideal) (Nm m c) (Sr m c) (Ds m c) (Cert.Gcn.lin128 (F := Ideal) (L1 m c) (m ((c : Thread nD τ).loc main_arg4))) := by
  show StableHlo.after hostOps3 (W7 m ρ c) (Proc.devRef .tc main_v58) = _
  after_results_simp
  rw [w7_v28, w7_v1, w7_v3, w7_v45]
  rfl

/-- The second bias vector as a one-row matrix. -/
theorem w8_v59 : W8 m ρ c (Proc.devRef .tc main_v59) = Cert.Gcn.row128 (F := Ideal) (m ((c : Thread nD τ).loc main_arg5)) := by
  show StableHlo.after hostOps3 (W7 m ρ c) (Proc.devRef .tc main_v59) = _
  after_results
  rw [w7_arg5]
  exact Cert.RegionLib.castRow_eq_bcastRow _ _ _

/-- Region 3 leaves the second layer's output. -/
theorem w9_v60 : W9 m ρ c (Proc.devRef .tc main_v60) = L2 m c := by
  refine (W9_arr m ρ c 2).trans ?_
  refine (Cert.KernelIdeal.Region3.out_eq (V8 m ρ) c).trans ?_
  show Cert.Gcn.rowBias128 (F := Ideal) (W8 m ρ c (Proc.devRef .tc main_v58)) (W8 m ρ c (Proc.devRef .tc main_v59)) = _
  rw [w8_v58, w8_v59]
  rfl

/-- Region 4 leaves the third matrix product. -/
theorem w10_v61 : W10 m ρ c (Proc.devRef .tc main_v61) = Cert.Gcn.lin64 (F := Ideal) (L2 m c) (m ((c : Thread nD τ).loc main_arg6)) := by
  refine (W10_arr m ρ c 2).trans ?_
  refine (Cert.KernelIdeal.Region4.out_eq (V9 m ρ) c).trans ?_
  show Cert.Gcn.lin64 (F := Ideal) (W9 m ρ c (Proc.devRef .tc main_v60)) (W9 m ρ c (Proc.devRef .tc main_arg6)) = _
  rw [w9_v60, w9_arg6]

set_option maxHeartbeats 4000000 in
/-- The host aggregates it over the edges. -/
theorem w11_v74 : W11 m ρ c (Proc.devRef .tc main_v74)
    = Cert.Gcn.agg64 (F := Ideal) (Nm m c) (Sr m c) (Ds m c) (Cert.Gcn.lin64 (F := Ideal) (L2 m c) (m ((c : Thread nD τ).loc main_arg6))) := by
  show StableHlo.after hostOps5 (W10 m ρ c) (Proc.devRef .tc main_v74) = _
  after_results_simp
  rw [w10_v28, w10_v1, w10_v3, w10_v61]
  rfl

/-- The third bias vector as a one-row matrix. -/
theorem w11_v75 : W11 m ρ c (Proc.devRef .tc main_v75) = Cert.Gcn.row64 (F := Ideal) (m ((c : Thread nD τ).loc main_arg7)) := by
  show StableHlo.after hostOps5 (W10 m ρ c) (Proc.devRef .tc main_v75) = _
  after_results
  rw [w10_arg7]
  exact Cert.RegionLib.castRow_eq_bcastRow _ _ _

/-- THE RESULT: region 5 leaves the network of the argument arrays. -/
theorem result : W12 m ρ c (Proc.devRef .tc main_v76)
    = Cert.Gcn.net (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (W12_arr m ρ c 2).trans ?_
  refine (Cert.KernelIdeal.Region5.out_eq (V11 m ρ) c).trans ?_
  show Cert.Gcn.rowBias64 (F := Ideal) (W11 m ρ c (Proc.devRef .tc main_v74)) (W11 m ρ c (Proc.devRef .tc main_v75)) = _
  rw [w11_v74, w11_v75]
  rfl

end Cert.KernelIdeal.KValue

end
-- ==== Proof.RefSide.lean ====
/-
  The reference program computes the network: its run ends with the result array at the composed term of its 111
  host operations over the argument arrays, and that term is `Cert.Gcn.net` of the arguments — the same operations,
  grouped into layers.
-/
import proofs.«108545_j75273596830237_1_alg».proof.Proof.RefRun
import proofs.«108545_j75273596830237_1_alg».proof.Proof.Spec

noncomputable section

namespace Cert.Gcn

open Idealize.ShloMosaic Idealize.ShloMosaic.TcCoe Idealize.SL.Sem Cert.ReferenceIdeal Cert.ReferenceIdeal.Gen

variable {F : FTy → Type} [FloatOps F]

set_option maxRecDepth 8192 in
/-- The reference's result term is the network of its arguments. -/
theorem ref_result (m : (ℓ : Loc nD τ sig) → Buf (Elt F) ℓ) (c : Dev nD) :
    Cert.ReferenceIdeal.ValueP.res_main_v84 (F := F) m c
      = net (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v84 net layer64 layer128 rowBias64 rowBias128 row64 row128 agg64 agg128 lin64 lin128 coef dinv deg wrap src dst
  rfl

end Cert.Gcn

end
-- ==== Proof.lean ====
/-
  A three-layer graph convolution: the kernel program computes each layer's matrix product and its bias-and-cut step in
  device regions of ten row blocks, and leaves the gather along the edges and the scatter-add at the targets to the
  host; the reference program does all of it on the host. Read at the ideal values (floats as extended reals, a change
  of float format the identity) both programs end with the SAME function of the eight argument arrays in the result
  array — the network of Proof/Spec.lean —, operation for operation: the kernel's bf16 narrowing before the matrix unit
  is the identity, its product into a zero accumulator is the host's matrix product (both the sum over the 128
  contracted positions), its "repeat the bias row, add, cut at zero" is the host's, and the host operations between
  the regions are the reference's own. No law of the extended reals beyond re-indexing a finite sum is used, so the
  finiteness of the inputs is never opened.

  The three frames: the two kernel programs' are their generated frame certificates; the reference has no device
  region, and its frame is its run (Proof/RefRun.lean) with the result dropped. The idealization rewrote nothing.
  The kernel's run with its result array named is Proof/KernelRun.lean, the array's value Proof/KernelValue.lean over
  the six regions (Proof/Region0 … Region5.lean); that the reference's term is the network is Proof/RefSide.lean.
-/
import proofs.«108545_j75273596830237_1_alg».proof.Defs
import proofs.«108545_j75273596830237_1_alg».proof.Proof.Gen.Kernel
import proofs.«108545_j75273596830237_1_alg».proof.Proof.Gen.Kernel.Skeleton
import proofs.«108545_j75273596830237_1_alg».proof.Proof.Gen.Kernel.Launch
import proofs.«108545_j75273596830237_1_alg».proof.Proof.Gen.Kernel.Points
import proofs.«108545_j75273596830237_1_alg».proof.Proof.Gen.Kernel.Frame
import proofs.«108545_j75273596830237_1_alg».proof.Proof.Gen.KernelIdeal
import proofs.«108545_j75273596830237_1_alg».proof.Proof.Gen.KernelIdeal.Skeleton
import proofs.«108545_j75273596830237_1_alg».proof.Proof.Gen.KernelIdeal.Launch
import proofs.«108545_j75273596830237_1_alg».proof.Proof.Gen.KernelIdeal.Points
import proofs.«108545_j75273596830237_1_alg».proof.Proof.Gen.KernelIdeal.Frame
import proofs.«108545_j75273596830237_1_alg».proof.Proof.Gen.ReferenceIdeal
import proofs.«108545_j75273596830237_1_alg».proof.Proof.Gen.Pre_finite_inputs
import proofs.«108545_j75273596830237_1_alg».proof.Proof.KernelRun
import proofs.«108545_j75273596830237_1_alg».proof.Proof.KernelValue
import proofs.«108545_j75273596830237_1_alg».proof.Proof.RefRun
import proofs.«108545_j75273596830237_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs and keeps its arguments: its generated frame certificate. -/
theorem frame_kernel : Cert.frame_Kernel := fun m ρ _ => Cert.Kernel.Gen.frame m ρ

/-- The idealized kernel program runs and keeps its arguments: its generated frame certificate. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs, from memories agreeing on the arguments, end with the network of the arguments in the
    result array. -/
theorem algebraic : Cert.algebraic_KernelIdeal_ReferenceIdeal := by
  intro m ρ m' ρ' _ hagree
  refine ⟨fun c => Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KValue.result m ρ c), (h c).2⟩) (Cert.KernelIdeal.RunValue.run m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7⟩ := hagree c
    rw [Cert.Gcn.ref_result, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
